-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  main_v8
-- ==== Kernel.lean ====
abbrev S128x100000 : Shape := ⟨2, ![128, 100000]⟩
abbrev S8x100000 : Shape := ⟨2, ![8, 100000]⟩
abbrev S8 : Shape := ⟨1, ![8]⟩
abbrev S8x1 : Shape := ⟨2, ![8, 1]⟩

abbrev nBuf : Space → Nat
  | .hbm => 4
  | .vmem => 8
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .hbm, ⟨3, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | .local _ .vmem, ⟨6, _⟩ => ⟨S8x100000, .f32⟩
  | .local _ .vmem, ⟨7, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x100000_S8x100000_0_0 : ∀ a, (![0, 0] : Fin 2 → Nat) a + S8x100000.size a ≤ S8x100000.size a
  h_S8x100000 : 0 < S8x100000.numel
  reduces_S8x100000_S8 : S8x100000.Reduces [1] S8
  shapeCasts_S8_S8x1 : S8.ShapeCasts S8x1
  broadcasts_S8x1_S8x100000 : S8x1.Broadcasts S8x100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S128x100000.size a
  hwx0_0 : ∀ i : grid0.Coords, EltTy.bits .f32 = 32 ∨ (Rect.block (s := S128x100000) S8x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100000.size a ≤ S128x100000.size a
  hwx0_1 : ∀ i : grid0.Coords, EltTy.bits .f32 = 32 ∨ (Rect.block (s := S128x100000) S8x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x100000.size a ≤ S128x100000.size a
  hwx0_2 : ∀ i : grid0.Coords, EltTy.bits .f32 = 32 ∨ (Rect.block (s := S128x100000) S8x100000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x100000.size a ≤ S128x100000.size a
  hwx0_3 : ∀ i : grid0.Coords, EltTy.bits .f32 = 32 ∨ (Rect.block (s := S128x100000) S8x100000.size (cc0_transform_3 i) (hinb0_3 i)).WholeWords (EltTy.packing .f32)

variable [Facts₀]

abbrev win0_0 : Pipeline.Window sig grid0 :=
  Pipeline.Window.ofSpec (Memref.whole main_arg0) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x100000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x100000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x100000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 15
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128x100000, .f32⟩
  | .hbm, ⟨4, _⟩ => ⟨S128x100000, .f32⟩
  | .hbm, ⟨5, _⟩ => ⟨S128x100000, .f32⟩
  | .hbm, ⟨6, _⟩ => ⟨S128x100000, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S128x100000, .f32⟩
  | .hbm, ⟨11, _⟩ => ⟨S128x100000, .f32⟩
  | .hbm, ⟨12, _⟩ => ⟨S_, .f32⟩
  | .hbm, ⟨13, _⟩ => ⟨S128x100000, .f32⟩
  | .hbm, ⟨14, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S128x100000 : S_.BroadcastsInDim S128x100000 (![] : Fin 0 → Fin S128x100000.rank)
  reducesTo_S128x100000_S128_d1 : S128x100000.ReducesTo [1] S128
  h_S_ : 0 < S_.numel
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts₀]

class Facts : Prop extends Facts₀ where

variable [Facts]
-- ==== Proof.LibExtReal.lean ====
/-
  General facts about float values read as extended reals, with no program in sight: what two f32 patterns
  denote, division by one, the sign of an exponential, when a sum of exponentials is not zero, the rearrangement
  of a scaled quotient off zero, and that an extended real of finite absolute value is a real number.
-/
import Idealize.ShloMosaic.PureOps.Ideal
import Idealize.ShloMosaic.PureOps.Ideal.Laws

noncomputable section

namespace Cert.LibExtReal

open Idealize.ShloMosaic

/-- The f32 pattern of `1.0` denotes the extended real `1`. -/
theorem ofBits_one_f32 : Ideal.ofBits .f32 0x3F800000#32 = 1 := by
  simp [Ideal.ofBits, Ideal.ieee, -EReal.coe_mul]; norm_num

/-- The f32 pattern of `+inf` denotes `+∞`. -/
theorem ofBits_inf_f32 : Ideal.ofBits .f32 0x7F800000#32 = ⊤ := by
  simp [Ideal.ofBits, Ideal.ieee]

/-- Division by one changes nothing, at the infinities too. -/
theorem div_one (a : EReal) : Ideal.div a 1 = a := by
  rw [← EReal.coe_one, Ideal.div_coe one_ne_zero a]
  norm_num

/-- An exponential is never negative: `e^(-∞) = 0`, `e^(+∞) = +∞`, and a real exponential is positive. -/
theorem exp_nonneg (a : EReal) : 0 ≤ Ideal.exp a := by
  induction a using EReal.rec with
  | bot => simp
  | top => simp
  | coe r => rw [Ideal.exp_coe]; exact EReal.coe_nonneg.mpr (Real.exp_nonneg r)

/-- The exponential of a real number is positive. -/
theorem exp_pos (r : ℝ) : 0 < Ideal.exp (r : EReal) := by
  rw [Ideal.exp_coe]; exact EReal.coe_pos.mpr (Real.exp_pos r)

/-- A finite sum of exponentials one of whose exponents is a real number is not zero: the terms are non-negative,
    so the sum is at least that positive term. -/
theorem sum_exp_ne_zero {ι : Type} [Fintype ι] (a : ι → EReal) (k0 : ι) (r : ℝ) (h : a k0 = r) :
    ∑ k : ι, Ideal.exp (a k) ≠ 0 := by
  have hpos : 0 < Ideal.exp (a k0) := by rw [h]; exact exp_pos r
  have hle : Ideal.exp (a k0) ≤ ∑ k : ι, Ideal.exp (a k) :=
    Finset.single_le_sum (f := fun k : ι => Ideal.exp (a k)) (fun k _ => exp_nonneg _) (Finset.mem_univ k0)
  exact ne_of_gt (lt_of_lt_of_le hpos hle)

/-- Off zero a quotient is a product with the inverse, so scaling by a quotient and scaling a quotient are one
    product rearranged: `(e / d) · c = e · (c / d)` for every extended `e`, `c` and every `d ≠ 0`. (At `d = 0` the
    two sides are infinities whose signs depend on `e` and `c` separately, and they differ.) -/
theorem div_mul_eq_mul_div (e c d : EReal) (hd : d ≠ 0) : Ideal.div e d * c = e * Ideal.div c d := by
  unfold Ideal.div
  rw [if_neg hd, if_neg hd, mul_assoc, mul_comm d⁻¹ c]

/-- An extended real whose absolute value `max a (-a)` compares below the f32 pattern of `+inf` is a real number:
    the element fact behind a printed `jnp.all(jnp.abs(x) < inf)`. -/
theorem real_of_abs_lt_inf (a : EReal)
    (h : Ideal.cmp .olt (max a (-a)) (Ideal.ofBits .f32 0x7F800000#32) = 1#1) : ∃ r : ℝ, a = r := by
  rw [ofBits_inf_f32] at h
  induction a using EReal.rec with
  | bot => simp [Ideal.cmp] at h
  | top => simp [Ideal.cmp] at h
  | coe r => exact ⟨r, rfl⟩

end Cert.LibExtReal

end
-- ==== Proof.Softmax.lean ====
/-
  The mathematics of this certificate, with no program in sight.

  Two arrays of 128 rows and 100000 columns of extended reals, `x` and `s`, give
    * the running state      `state x s (p, q) = x (p, q) + s (p, q)`, and
    * the doubled row softmax `scaled x s (p, q) = e^(x (p, q) + s (p, q)) · (2 / Σ_k e^(x (p, k) + s (p, k)))`.

  One side of the certificate computes the second array in exactly this arrangement: the exponential times the
  quotient of two by the row's sum.  The other side divides `x` by one before adding, starts the row's sum from
  zero, divides the exponential by the sum and doubles the quotient: `(e^(x/1 + s) / (0 + Σ_k e^(x/1 + s))) · 2`.

  On the extended reals division by zero is not multiplication by an inverse, so the two arrangements agree only
  where the row's sum is not zero.  When every entry of `x` and `s` is a real number, every exponential in the row
  is a positive real, the sum of non-negative terms is at least any one of them, and so the sum is positive.  Off
  zero a quotient `a / d` is the product `a · d⁻¹`, and the identity `e · (c · d⁻¹) = (e · d⁻¹) · c` is
  associativity and commutativity of the product, which hold for all extended reals; the literal `2` is never
  evaluated.  The literal `1` is: `a / 1 = a · 1 = a`.
-/
import proofs.«164424_g59760174956721_cont_9to1_m_129_2_alg».proof.Proof.LibExtReal
import Idealize.ShloMosaic.PureOps.Ideal
import Idealize.ShloMosaic.PureOps.Ideal.Laws
import Idealize.ShloMosaic.Lib.ValueIdx

noncomputable section

namespace Cert.Softmax

open Idealize.ShloMosaic Idealize.ShloMosaic.ValueIdx

/-- The shape of both inputs and both results: 128 rows of 100000 columns. -/
abbrev Mat : Shape := ⟨2, ![128, 100000]⟩

/-- The literal two, kept as the pattern both sides spell. -/
abbrev two : EReal := Ideal.ofBits .f32 0x40000000#32

/-- The literal one by which one side divides `x`. -/
abbrev one : EReal := Ideal.ofBits .f32 0x3F800000#32

/-- Division by the literal one changes nothing, at the infinities too. -/
theorem div_one (a : EReal) : Ideal.div a one = a := by
  rw [show one = 1 from Cert.LibExtReal.ofBits_one_f32]
  exact Cert.LibExtReal.div_one a

/-- The row of an index, as a number below 128. -/
abbrev rowOf (i : Mat.Idx) : Fin 128 := ⟨(i 0).val, (i 0).isLt⟩

/-- The running state: the entrywise sum of the two inputs. -/
def state (x s : Mat.Idx → EReal) : Mat.Idx → EReal := fun i => x i + s i

/-- The sum over row `p` of the exponentials of the running state. -/
def rowSum (x s : Mat.Idx → EReal) (p : Fin 128) : EReal :=
  ∑ k : Fin 100000, Ideal.exp (x (ix2 p k) + s (ix2 p k))

/-- The doubled row softmax: each exponential times the quotient of two by its row's sum. -/
def scaled (x s : Mat.Idx → EReal) : Mat.Idx → EReal :=
  fun i => Ideal.exp (x i + s i) * Ideal.div two (rowSum x s (rowOf i))

/-- With real entries a row's sum of exponentials is positive, hence not zero: it is at least its first term. -/
theorem rowSum_ne_zero (x s : Mat.Idx → EReal) (hx : ∀ i, ∃ r : ℝ, x i = r) (hs : ∀ i, ∃ r : ℝ, s i = r)
    (p : Fin 128) : rowSum x s p ≠ 0 := by
  have k0 : Fin 100000 := ⟨0, by norm_num⟩
  obtain ⟨a, ha⟩ := hx (ix2 p k0)
  obtain ⟨b, hb⟩ := hs (ix2 p k0)
  exact Cert.LibExtReal.sum_exp_ne_zero (fun k : Fin 100000 => x (ix2 p k) + s (ix2 p k)) k0 (a + b)
    (by rw [ha, hb, EReal.coe_add])

/-- THE LAW: with real entries, dividing `x` by one, summing the row from zero, dividing by the sum and doubling
    gives the doubled row softmax. -/
theorem quotient_form (x s : Mat.Idx → EReal) (hx : ∀ i, ∃ r : ℝ, x i = r) (hs : ∀ i, ∃ r : ℝ, s i = r)
    (i : Mat.Idx) :
    Ideal.div (Ideal.exp (Ideal.div (x i) one + s i))
        (Ideal.ofBits .f32 0x00000000#32
          + ∑ k : Fin 100000, Ideal.exp (Ideal.div (x (ix2 (rowOf i) k)) one + s (ix2 (rowOf i) k))) * two
      = scaled x s i := by
  simp only [div_one, Ideal.ofBits_zero_f32, zero_add]
  exact Cert.LibExtReal.div_mul_eq_mul_div _ two _ (rowSum_ne_zero x s hx hs (rowOf i))

/-- The other result needs no hypothesis: `x / 1 + s` is the running state. -/
theorem state_form (x s : Mat.Idx → EReal) (i : Mat.Idx) : Ideal.div (x i) one + s i = state x s i := by
  rw [div_one]; rfl

end Cert.Softmax

end
-- ==== Proof.RefSoftmax.lean ====
/-
  The reference program's two results, entry by entry.

  Its thirteen host operations are read one at a time by the generated read-at-an-index lemmas.  Chained from the
  result backwards they say: the first result at `(p, q)` is the exponential of `x (p, q) / 1 + s (p, q)` divided by
  the sum — started from the zero literal — over the columns `k` of row `p` of those exponentials, times the literal
  two; the second result at `(p, q)` is `x (p, q) / 1 + s (p, q)`.  The only index work is that the three layout
  steps between the row sums and the quotient (a vector of 128 sums made a column, the column spread over the
  100000 columns, and the sum's inserted coordinate) compose to "row `p`, column `k`".
-/
import proofs.«164424_g59760174956721_cont_9to1_m_129_2_alg».proof.Proof.Gen.ReferenceIdeal.Read
import proofs.«164424_g59760174956721_cont_9to1_m_129_2_alg».proof.Proof.Softmax
import Idealize.ShloMosaic.Lib.ValueIdx

noncomputable section

namespace Cert.RefSoftmax

open Cert.ReferenceIdeal Cert.ReferenceIdeal.Gen Cert.ReferenceIdeal.Read
open Idealize.ShloMosaic Idealize.ShloMosaic.ValueIdx Cert.Softmax

/-- Through the column layout and the spread over columns, the term `k` of the sum that entry `i` is divided by
    sits at the row of `i`, column `k`. -/
theorem row_idx (i : S128x100000.Idx) (k : Fin 100000) :
    idx_main_v4 (idx_main_v5 (idx_main_v6 i)) k = ix2 (rowOf i) k :=
  funext fun a => Fin.ext (by match a with | ⟨0, _⟩ => rfl | ⟨1, _⟩ => rfl)

/-- The second result: `x / 1 + s`, entry by entry. -/
theorem state_apply (x s : S128x100000.Idx → EReal) (i : S128x100000.Idx) :
    val_main_v2 (F := Ideal) x s i = Ideal.div (x i) one + s i := by
  rw [val_main_v2_apply, val_main_v1_apply, val_main_v0_apply, val_main_cst_apply]
  rfl

/-- The first result: the exponential over the row's sum from zero, doubled. -/
theorem scaled_apply (x s : S128x100000.Idx → EReal) (i : S128x100000.Idx) :
    val_main_v9 (F := Ideal) x s i
      = Ideal.div (Ideal.exp (Ideal.div (x i) one + s i))
          (Ideal.ofBits .f32 0x00000000#32
            + ∑ k : Fin 100000, Ideal.exp (Ideal.div (x (ix2 (rowOf i) k)) one + s (ix2 (rowOf i) k))) * two := by
  rw [val_main_v9_apply, val_main_v7_apply, val_main_v8_apply, val_main_cst_1_apply, val_main_v6_apply,
    val_main_v5_apply, val_main_v4_apply, val_main_cst_0_apply]
  simp only [val_main_v3_apply, state_apply, row_idx, Ideal.mulf_def, Ideal.hostDivf_def,
    Ideal.hostUnary_exp_def, Ideal.ofBits_def]

/-- With real entries the first result, as a whole array, is the doubled row softmax of the inputs. -/
theorem scaled_eq (x s : S128x100000.Idx → EReal) (hx : ∀ i, ∃ r : ℝ, x i = r) (hs : ∀ i, ∃ r : ℝ, s i = r) :
    val_main_v9 (F := Ideal) x s = scaled x s :=
  funext fun i => (scaled_apply x s i).trans (quotient_form x s hx hs i)

/-- The second result, as a whole array, is the running state of the inputs. -/
theorem state_eq (x s : S128x100000.Idx → EReal) : val_main_v2 (F := Ideal) x s = state x s :=
  funext fun i => (state_apply x s i).trans (state_form x s i)

end Cert.RefSoftmax

end
-- ==== Proof.KernelRows.lean ====
/-
  What the kernel leaves in its two result arrays.

  The grid has 16 points; at point `t` every window's block is rows `8t … 8t + 7` of its array, all 100000 columns
  (the four index maps send `t` to block `(t, 0)`).  The body reads the two input blocks `P0`, `P1` whole and stores
    * into the second result's block the entrywise sum `P0 + P1`;
    * into the first result's block, at `(r, q)`, the exponential of `P0 (r, q) + P1 (r, q)` times the quotient of
      the literal two by the sum over the block's row `r` of those exponentials (a lane sum into 8 values, re-laid as
      a column and spread back over the columns).
  Since a block holds whole rows, the sum over the block's row `r` is the sum over the array's row `8t + r`: the
  block written at point `t` is the restriction to rows `8t … 8t + 7` of one function of the whole input arrays —
  the running state for the second result, the doubled row softmax for the first.  Every row `p` lies in the block
  of the point `p / 8`, so the blocks cover both arrays, and each array ends as that function.
-/
import proofs.«164424_g59760174956721_cont_9to1_m_129_2_alg».proof.Proof.Gen.KernelIdeal.Value
import proofs.«164424_g59760174956721_cont_9to1_m_129_2_alg».proof.Proof.Softmax
import Idealize.ShloMosaic.Lib.Pipeline.Value
import Idealize.ShloMosaic.Lib.ValueIdx
import Idealize.ShloMosaic.PureOps.Ideal.Laws

noncomputable section

namespace Cert.KernelRows

open Cert.KernelIdeal Cert.KernelIdeal.Gen Cert.KernelIdeal.Value
open Idealize.ShloMosaic Idealize.ShloMosaic.TcCoe Idealize.SL.Sem Idealize.ShloMosaic.ValueIdx Cert.Softmax
open Idealize.ShloMosaic.Pipeline (Dat)

variable (m : (ℓ : Loc nD τ sig) → Buf (Elt Ideal) ℓ) (ρ : Dev nD → PrngReg)

/-- The body's loads and stores start at the block's origin. -/
theorem zero_off : (![0, 0] : Fin 2 → Nat) = fun _ => 0 := funext fun a => by fin_cases a <;> rfl

/-- The four index maps, decided over the 16 points: point `t` has block `(t, 0)` in every window. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `r` of the block at point `t` is row `8t + r` of the array. -/
abbrev rowAt (t : Fin cfg0.N) (r : Fin 8) : Fin 128 :=
  ⟨t.val * 8 + r.val, by have ht : t.val < 16 := t.isLt; have hr := r.isLt; omega⟩

/-! ## Where a block's entry sits in its array -/

theorem emb0 (t : Fin cfg0.N) (r : Fin 8) (k : Fin 100000) :
    ((cfg0.win 0).blk t).view.emb (ix2 r k) = ix2 (rowAt t r) k := by
  obtain ⟨a0, a1, -⟩ := index_facts t
  funext a; apply Fin.ext
  match a with
  | ⟨0, _⟩ => show win0_0.index t (0 : Fin 2) * 8 + 1 * r.val = t.val * 8 + r.val; omega
  | ⟨1, _⟩ => show win0_0.index t (1 : Fin 2) * 100000 + 1 * k.val = k.val; omega

theorem emb1 (t : Fin cfg0.N) (r : Fin 8) (k : Fin 100000) :
    ((cfg0.win 1).blk t).view.emb (ix2 r k) = ix2 (rowAt t r) k := by
  obtain ⟨-, -, a0, a1, -⟩ := index_facts t
  funext a; apply Fin.ext
  match a with
  | ⟨0, _⟩ => show win0_1.index t (0 : Fin 2) * 8 + 1 * r.val = t.val * 8 + r.val; omega
  | ⟨1, _⟩ => show win0_1.index t (1 : Fin 2) * 100000 + 1 * k.val = k.val; omega

theorem emb2 (t : Fin cfg0.N) (r : Fin 8) (k : Fin 100000) :
    ((cfg0.win 2).blk t).view.emb (ix2 r k) = ix2 (rowAt t r) k := by
  obtain ⟨-, -, -, -, a0, a1, -⟩ := index_facts t
  funext a; apply Fin.ext
  match a with
  | ⟨0, _⟩ => show win0_2.index t (0 : Fin 2) * 8 + 1 * r.val = t.val * 8 + r.val; omega
  | ⟨1, _⟩ => show win0_2.index t (1 : Fin 2) * 100000 + 1 * k.val = k.val; omega

theorem emb3 (t : Fin cfg0.N) (r : Fin 8) (k : Fin 100000) :
    ((cfg0.win 3).blk t).view.emb (ix2 r k) = ix2 (rowAt t r) k := by
  obtain ⟨-, -, -, -, -, -, a0, a1⟩ := index_facts t
  funext a; apply Fin.ext
  match a with
  | ⟨0, _⟩ => show win0_3.index t (0 : Fin 2) * 8 + 1 * r.val = t.val * 8 + r.val; omega
  | ⟨1, _⟩ => show win0_3.index t (1 : Fin 2) * 100000 + 1 * k.val = k.val; omega

/-- The first input's block at point `t` holds rows `8t … 8t + 7` of the first input. -/
theorem iblk0 (c : Dev nD) (t : Fin cfg0.N) (r : Fin 8) (k : Fin 100000) :
    iblk m c 0 t (ix2 r k) = V m c main_arg0 (ix2 (rowAt t r) k) := by
  show V m c main_arg0 (((cfg0.win 0).blk t).view.emb (ix2 r k)) = _
  rw [emb0]

/-- The second input's block at point `t` holds rows `8t … 8t + 7` of the second input. -/
theorem iblk1 (c : Dev nD) (t : Fin cfg0.N) (r : Fin 8) (k : Fin 100000) :
    iblk m c 1 t (ix2 r k) = V m c main_arg1 (ix2 (rowAt t r) k) := by
  show V m c main_arg1 (((cfg0.win 1).blk t).view.emb (ix2 r k)) = _
  rw [emb1]

/-! ## The body's two stores, entry by entry, over any two input blocks -/

/-- The lane sum of the block's exponentials at row `r` is the sum over the 100000 columns of that row. -/
theorem rowsum_block (P0 P1 : Vec Ideal S8x100000 .f32) (r : Fin 8) :
    multiReduction (F := Ideal) .add [1] S8 (exp (addf P0 P1)) 0x00000000#32 reduces_S8x100000_S8 (.inl rfl) rfl (ix1 r)
      = ∑ k : Fin 100000, Ideal.exp (P0 (ix2 r k) + P1 (ix2 r k)) := by
  refine (Ideal.multiReduction_add_single (exp (addf P0 P1)) 0x00000000#32 reduces_S8x100000_S8 (.inl rfl) rfl
    (ix1 r)).trans ?_
  refine Finset.sum_congr rfl fun k _ => ?_
  have e : reduces_S8x100000_S8.lift (ix1 r) k = ix2 r k :=
    funext fun a => Fin.ext (by match a with | ⟨0, _⟩ => rfl | ⟨1, _⟩ => rfl)
  exact congrArg (fun j => Ideal.exp (P0 j + P1 j)) e

/-- The first result's block at `(r, q)`: the exponential times two over the row's sum. -/
theorem scaled_block (P0 P1 : Vec Ideal S8x100000 .f32) (r : Fin 8) (q : Fin 100000) :
    E2 (F := Ideal) P0 P1 (ix2 r q)
      = Ideal.exp (P0 (ix2 r q) + P1 (ix2 r q))
          * Ideal.div two (∑ k : Fin 100000, Ideal.exp (P0 (ix2 r k) + P1 (ix2 r k))) := by
  have e0 : ix2_0 (ix2 r q) = ix2 r q :=
    funext fun a => Fin.ext (by match a with | ⟨0, _⟩ => rfl | ⟨1, _⟩ => rfl)
  have e1 : ix2_1 (ix2 r q) = ix2 r q :=
    funext fun a => Fin.ext (by match a with | ⟨0, _⟩ => rfl | ⟨1, _⟩ => rfl)
  have e2 : ix2_2 (ix2 r q) = ix1 r :=
    funext fun a => Fin.ext (by match a with | ⟨0, _⟩ => rfl)
  show Ideal.exp (P0 (ix2_0 (ix2 r q)) + P1 (ix2_1 (ix2 r q)))
      * Ideal.div two (multiReduction (F := Ideal) .add [1] S8 (exp (addf P0 P1)) 0x00000000#32
          reduces_S8x100000_S8 (.inl rfl) rfl (ix2_2 (ix2 r q))) = _
  rw [e0, e1, e2, rowsum_block]

/-- If the two blocks hold, row for row, the rows `f r` of two arrays `X` and `S`, the first result's block holds
    those rows of the doubled row softmax of `X` and `S`. -/
theorem scaled_of_rows (X S : Mat.Idx → EReal) (P0 P1 : Vec Ideal S8x100000 .f32) (f : Fin 8 → Fin 128)
    (h0 : ∀ r k, P0 (ix2 r k) = X (ix2 (f r) k)) (h1 : ∀ r k, P1 (ix2 r k) = S (ix2 (f r) k))
    (r : Fin 8) (q : Fin 100000) :
    E2 (F := Ideal) P0 P1 (ix2 r q) = scaled X S (ix2 (f r) q) := by
  rw [scaled_block]
  unfold scaled rowSum
  simp only [h0, h1]

/-- Under the same hypothesis the second result's block holds those rows of the running state. -/
theorem state_of_rows (X S : Mat.Idx → EReal) (P0 P1 : Vec Ideal S8x100000 .f32) (f : Fin 8 → Fin 128)
    (h0 : ∀ r k, P0 (ix2 r k) = X (ix2 (f r) k)) (h1 : ∀ r k, P1 (ix2 r k) = S (ix2 (f r) k))
    (r : Fin 8) (k : Fin 100000) :
    k0_pay1 (F := Ideal) P0 P1 (ix2 r k) = state X S (ix2 (f r) k) := by
  show P0 (ix2 r k) + P1 (ix2 r k) = _
  rw [h0, h1]
  rfl

/-! ## What each point writes back -/

/-- Point `t` writes back to the second result rows `8t … 8t + 7` of the running state. -/
theorem flushed_state (c : Dev nD) (t : Fin cfg0.N) :
    (dats m 0 c).flushed 3 t
      = ((cfg0.win 3).blk t).view.read (Elt Ideal) (state (V m c main_arg0) (V m c main_arg1)) := by
  rw [Value.flushed3]
  unfold out0_3
  rw [View.canon_unit_zero zero_off]
  simp only [View.ld_unit_zero (S := S8x100000) zero_off]
  have key : k0_pay1 (F := Ideal) (iblk m c 0 t) (iblk m c 1 t)
      = fun y : S8x100000.Idx =>
          state (V m c main_arg0) (V m c main_arg1) (((cfg0.win 3).blk t).view.emb y) := by
    funext y
    obtain ⟨r, k, rfl⟩ : ∃ (r : Fin 8) (k : Fin 100000), y = ix2 r k := ⟨y 0, y 1, eq_ix2 y⟩
    refine (state_of_rows (V m c main_arg0) (V m c main_arg1) (iblk m c 0 t) (iblk m c 1 t) (rowAt t)
      (iblk0 m c t) (iblk1 m c t) r k).trans ?_
    rw [emb3]
  rw [key]
  rfl

/-- Point `t` writes back to the first result rows `8t … 8t + 7` of the doubled row softmax. -/
theorem flushed_scaled (c : Dev nD) (t : Fin cfg0.N) :
    (dats m 0 c).flushed 2 t
      = ((cfg0.win 2).blk t).view.read (Elt Ideal) (scaled (V m c main_arg0) (V m c main_arg1)) := by
  rw [Value.flushed2]
  unfold out0_2
  simp only [View.ld_unit_zero (S := S8x100000) zero_off]
  have key : View.canon
        [(⟨r0_0, k0_pay2 (F := Ideal) (iblk m c 0 t) (iblk m c 1 t)⟩ : View.Piece (Elt Ideal) S8x100000 .f32)]
      = fun y : S8x100000.Idx =>
          scaled (V m c main_arg0) (V m c main_arg1) (((cfg0.win 2).blk t).view.emb y) := by
    funext y
    refine (canon2_eq (iblk m c 0 t) (iblk m c 1 t) y).trans ?_
    obtain ⟨r, q, rfl⟩ : ∃ (r : Fin 8) (q : Fin 100000), y = ix2 r q := ⟨y 0, y 1, eq_ix2 y⟩
    refine (scaled_of_rows (V m c main_arg0) (V m c main_arg1) (iblk m c 0 t) (iblk m c 1 t) (rowAt t)
      (iblk0 m c t) (iblk1 m c t) r q).trans ?_
    rw [emb2]
  rw [key]
  rfl

/-! ## The blocks tile the arrays -/

theorem mem_blk2 (t : Fin cfg0.N) (i : S128x100000.Idx) :
    i ∈ ((cfg0.win 2).blk t).view.set ↔ ∀ a : Fin 2, win0_2.index t a * S8x100000.size a ≤ (i a).val
      ∧ (i a).val < win0_2.index t a * S8x100000.size a + S8x100000.size a := by
  show i ∈ ((View.whole main_v0_0).slice (win0_2.rect t)).set ↔ _
  rw [View.set_slice_whole, Rect.mem_set_unit]
  exact Iff.rfl

theorem mem_blk3 (t : Fin cfg0.N) (i : S128x100000.Idx) :
    i ∈ ((cfg0.win 3).blk t).view.set ↔ ∀ a : Fin 2, win0_3.index t a * S8x100000.size a ≤ (i a).val
      ∧ (i a).val < win0_3.index t a * S8x100000.size a + S8x100000.size a := by
  show i ∈ ((View.whole main_v0_1).slice (win0_3.rect t)).set ↔ _
  rw [View.set_slice_whole, Rect.mem_set_unit]
  exact Iff.rfl

/-- Row `p` is in the block of the point `p / 8`. -/
theorem cover2 (i : S128x100000.Idx) :
    ∃ t : Fin cfg0.N, (cfg0.win 2).flush t = true ∧ i ∈ ((cfg0.win 2).blk t).view.set := by
  have hi0 : (i 0).val < 128 := (i 0).isLt
  have hi1 : (i 1).val < 100000 := (i 1).isLt
  have ht : (i 0).val / 8 < 16 := by omega
  obtain ⟨-, -, -, -, a0, a1, -⟩ := index_facts ⟨(i 0).val / 8, ht⟩
  have a0' : win0_2.index ⟨(i 0).val / 8, ht⟩ (0 : Fin 2) = (i 0).val / 8 := a0
  refine ⟨⟨(i 0).val / 8, ht⟩, flush0_2 _, ?_⟩
  rw [mem_blk2]
  intro a
  match a with
  | ⟨0, _⟩ =>
    show win0_2.index ⟨(i 0).val / 8, ht⟩ (0 : Fin 2) * 8 ≤ (i 0).val
      ∧ (i 0).val < win0_2.index ⟨(i 0).val / 8, ht⟩ (0 : Fin 2) * 8 + 8
    omega
  | ⟨1, _⟩ =>
    show win0_2.index ⟨(i 0).val / 8, ht⟩ (1 : Fin 2) * 100000 ≤ (i 1).val
      ∧ (i 1).val < win0_2.index ⟨(i 0).val / 8, ht⟩ (1 : Fin 2) * 100000 + 100000
    omega

theorem cover3 (i : S128x100000.Idx) :
    ∃ t : Fin cfg0.N, (cfg0.win 3).flush t = true ∧ i ∈ ((cfg0.win 3).blk t).view.set := by
  have hi0 : (i 0).val < 128 := (i 0).isLt
  have hi1 : (i 1).val < 100000 := (i 1).isLt
  have ht : (i 0).val / 8 < 16 := by omega
  obtain ⟨-, -, -, -, -, -, a0, a1⟩ := index_facts ⟨(i 0).val / 8, ht⟩
  have a0' : win0_3.index ⟨(i 0).val / 8, ht⟩ (0 : Fin 2) = (i 0).val / 8 := a0
  refine ⟨⟨(i 0).val / 8, ht⟩, flush0_3 _, ?_⟩
  rw [mem_blk3]
  intro a
  match a with
  | ⟨0, _⟩ =>
    show win0_3.index ⟨(i 0).val / 8, ht⟩ (0 : Fin 2) * 8 ≤ (i 0).val
      ∧ (i 0).val < win0_3.index ⟨(i 0).val / 8, ht⟩ (0 : Fin 2) * 8 + 8
    omega
  | ⟨1, _⟩ =>
    show win0_3.index ⟨(i 0).val / 8, ht⟩ (1 : Fin 2) * 100000 ≤ (i 1).val
      ∧ (i 1).val < win0_3.index ⟨(i 0).val / 8, ht⟩ (1 : Fin 2) * 100000 + 100000
    omega

/-! ## The arrays after the run -/

/-- The first result ends as the doubled row softmax of the inputs. -/
theorem final_scaled (c : Dev nD) :
    (dats m 0 c).arrAt 2 cfg0.N
      = scaled (m ((c : Thread nD τ).loc main_arg0)) (m ((c : Thread nD τ).loc main_arg1)) :=
  (dats m 0 c).arrAt_eq_of_cover 2 (scaled (V m c main_arg0) (V m c main_arg1))
    (fun t _ => flushed_scaled m c t) cover2

/-- The second result ends as the running state of the inputs. -/
theorem final_state (c : Dev nD) :
    (dats m 0 c).arrAt 3 cfg0.N
      = state (m ((c : Thread nD τ).loc main_arg0)) (m ((c : Thread nD τ).loc main_arg1)) :=
  (dats m 0 c).arrAt_eq_of_cover 3 (state (V m c main_arg0) (V m c main_arg1))
    (fun t _ => flushed_state m c t) cover3

/-- Every weakly fair execution of the kernel ends with the first result at the doubled row softmax, the second at
    the running state, and the inputs as launched. -/
theorem run : θ_run defs (onTc (τ := τ) (main (F := Ideal))) ⟨m, fun _ => 0, ρ⟩ fun r => ∀ c : Dev nD,
      r.2.mem ((c : Thread nD τ).loc main_v0_0)
        = scaled (m ((c : Thread nD τ).loc main_arg0)) (m ((c : Thread nD τ).loc main_arg1))
      ∧ r.2.mem ((c : Thread nD τ).loc main_v0_1)
        = state (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_scaled m c), (h c).2.1.trans (final_state m c),
      (h c).2.2.1, (h c).2.2.2⟩)
    (Value.run_blocks m ρ)

end Cert.KernelRows

end
-- ==== Proof.FiniteEntries.lean ====
/-
  What the precondition says of the inputs.

  The precondition is the conjunction of two tests, one per input: every entry's absolute value is below `+∞`,
  each test folded over all 12 800 000 entries by "and" from the constant one.  A fold by "and" that ends at one met
  only ones, so each comparison holds at every entry.  On the extended reals `|a| = max a (-a)` is `+∞` exactly
  at the two infinities, so `|a| < +∞` says that `a` is a real number.
-/
import proofs.«164424_g59760174956721_cont_9to1_m_129_2_alg».proof.Pre_finite_inputs
import proofs.«164424_g59760174956721_cont_9to1_m_129_2_alg».proof.Proof.Gen.Pre_finite_inputs
import proofs.«164424_g59760174956721_cont_9to1_m_129_2_alg».proof.Proof.LibExtReal
import Idealize.ShloMosaic.Lib.ReduceAll
import Idealize.ShloMosaic.Lib.ValueIdx
import Idealize.ShloMosaic.PureOps.Ideal
import Idealize.ShloMosaic.PureOps.Ideal.Laws

noncomputable section

namespace Cert.FiniteEntries

open Idealize.ShloMosaic Cert.Pre_finite_inputs

/-- The rank-0 shape has one index. -/
instance : Subsingleton S_.Idx := ⟨fun a b => funext fun d => d.elim0⟩

/-- Under the precondition every entry of both inputs is a real number. -/
theorem real_entries (x s : FVec Ideal S128x100000 .f32)
    (h : Cert.Pre_finite_inputs.fn (F := Ideal) x s = fun _ => 1#1) :
    (∀ i, ∃ r : ℝ, x i = r) ∧ (∀ i, ∃ r : ℝ, s i = r) := by
  have h0 := congrFun h ValueIdx.ix0
  dsimp only [Cert.Pre_finite_inputs.fn] at h0
  obtain ⟨h1, h2⟩ := IntOp.andi_eq_one.1 h0
  exact ⟨fun i => Cert.LibExtReal.real_of_abs_lt_inf _ (Host.reduce_andi_all _ _ _ _ _ h1 i),
    fun i => Cert.LibExtReal.real_of_abs_lt_inf _ (Host.reduce_andi_all _ _ _ _ _ h2 i)⟩

end Cert.FiniteEntries

end
-- ==== Proof.lean ====
/-
  The certificate of a fused row softmax with a carried state, 128 rows of 100000 columns.

  Both programs take two arrays `x` and `s` and return two arrays: the running state `x + s`, and its row softmax
  doubled, `e^(x + s) / Σ_row e^(x + s) · 2`.  The kernel works through the rows eight at a time: it adds the two
  blocks, stores the sum, exponentiates, sums each row's exponentials, and multiplies each exponential by the
  quotient `2 / sum`.  The reference works on whole arrays: it divides `x` by one, adds `s`, exponentiates, sums each
  row from zero, divides each exponential by its row's sum and doubles.

  Read on the extended reals, the kernel's result arrays are, with no hypothesis, the two functions of
  Proof/Softmax.lean (Proof/KernelRows.lean: each block of eight whole rows is those rows of the function, and
  the sixteen blocks cover the array).  The reference's second result is the running state outright
  (`x / 1 = x`).  Its first result is the doubled softmax wherever the row's sum is not zero — `a · (c / d)` and
  `(a / d) · c` are one product rearranged when `d ≠ 0`, and differ at `d = 0` — and the precondition gives that:
  all entries are real (Proof/FiniteEntries.lean), so every exponential is a positive real and every row's sum
  is positive (Proof/Softmax.lean, Proof/RefSoftmax.lean).

  The three frame claims are the programs' runs with the results forgotten; the idealization rewrote nothing,
  so the kernel and its idealization are the same text and that claim is `True`.
-/
import proofs.«164424_g59760174956721_cont_9to1_m_129_2_alg».proof.Defs
import proofs.«164424_g59760174956721_cont_9to1_m_129_2_alg».proof.Proof.Gen.Kernel
import proofs.«164424_g59760174956721_cont_9to1_m_129_2_alg».proof.Proof.Gen.Kernel.Skeleton
import proofs.«164424_g59760174956721_cont_9to1_m_129_2_alg».proof.Proof.Gen.Kernel.Launch
import proofs.«164424_g59760174956721_cont_9to1_m_129_2_alg».proof.Proof.Gen.Kernel.Points
import proofs.«164424_g59760174956721_cont_9to1_m_129_2_alg».proof.Proof.Gen.Kernel.Frame
import proofs.«164424_g59760174956721_cont_9to1_m_129_2_alg».proof.Proof.Gen.KernelIdeal
import proofs.«164424_g59760174956721_cont_9to1_m_129_2_alg».proof.Proof.Gen.KernelIdeal.Skeleton
import proofs.«164424_g59760174956721_cont_9to1_m_129_2_alg».proof.Proof.Gen.KernelIdeal.Launch
import proofs.«164424_g59760174956721_cont_9to1_m_129_2_alg».proof.Proof.Gen.KernelIdeal.Points
import proofs.«164424_g59760174956721_cont_9to1_m_129_2_alg».proof.Proof.Gen.KernelIdeal.Frame
import proofs.«164424_g59760174956721_cont_9to1_m_129_2_alg».proof.Proof.Gen.ReferenceIdeal
import proofs.«164424_g59760174956721_cont_9to1_m_129_2_alg».proof.Proof.Gen.Pre_finite_inputs
import proofs.«164424_g59760174956721_cont_9to1_m_129_2_alg».proof.Proof.Gen.KernelIdeal.Value
import proofs.«164424_g59760174956721_cont_9to1_m_129_2_alg».proof.Proof.Gen.ReferenceIdeal.Run
import proofs.«164424_g59760174956721_cont_9to1_m_129_2_alg».proof.Proof.Gen.ReferenceIdeal.Read
import proofs.«164424_g59760174956721_cont_9to1_m_129_2_alg».proof.Proof.Softmax
import proofs.«164424_g59760174956721_cont_9to1_m_129_2_alg».proof.Proof.RefSoftmax
import proofs.«164424_g59760174956721_cont_9to1_m_129_2_alg».proof.Proof.KernelRows
import proofs.«164424_g59760174956721_cont_9to1_m_129_2_alg».proof.Proof.FiniteEntries
import Idealize.ShloMosaic.Adequacy
import Idealize.ShloMosaic.Init

noncomputable section

namespace Cert.Proof

open Idealize.ShloMosaic Idealize.ShloMosaic.TcCoe Idealize.SL.Sem

/-- The kernel as printed runs and leaves its inputs as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its inputs as launched: its run with the two results forgotten. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on `x` and `s`, all of whose entries are real, both programs end with the doubled row
    softmax in the first result and the running state in the second. -/
theorem algebraic : Cert.algebraic_KernelIdeal_ReferenceIdeal := by
  intro m ρ m' ρ' hpre hagree
  refine ⟨fun c => Cert.Softmax.scaled (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => Cert.Softmax.state (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelRows.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · obtain ⟨hx, hs⟩ := Cert.FiniteEntries.real_entries _ _ (hpre c)
    rw [(hagree c).1, (hagree c).2]
    exact (Cert.ReferenceIdeal.Read.val_main_v9_eq _ _).trans (Cert.RefSoftmax.scaled_eq _ _ hx hs)
  · rw [(hagree c).1, (hagree c).2]
    exact (Cert.ReferenceIdeal.Read.val_main_v2_eq _ _).trans (Cert.RefSoftmax.state_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
